-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S128 : Shape := ⟨1, ![128]⟩
abbrev S1048576 : Shape := ⟨1, ![1048576]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S131072x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : IVec S1048576 32) (main_arg10 : IVec S1048576 32) (main_arg11 : IVec S1048576 32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S131072x128 : Shape := ⟨2, ![131072, 128]⟩
abbrev S128x128 : Shape := ⟨2, ![128, 128]⟩
abbrev S128 : Shape := ⟨1, ![128]⟩
abbrev S1048576 : Shape := ⟨1, ![1048576]⟩
abbrev S4096x128 : Shape := ⟨2, ![4096, 128]⟩
abbrev S1x128 : Shape := ⟨2, ![1, 128]⟩
abbrev S_ : Shape := ⟨0, ![]⟩
abbrev S1048576x1 : Shape := ⟨2, ![1048576, 1]⟩
abbrev S1048576x128 : Shape := ⟨2, ![1048576, 128]⟩

abbrev nBuf : Space → Nat
  | .hbm => 37
  | .vmem => 14
  | .smem => 0
  | _ => 0

abbrev bufTy : (tb : Table) → Fin (tcTables nBuf tb) → BufTy
  | .hbm, ⟨0, _⟩ => ⟨S131072x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S131072x128, .f32⟩
  | .hbm, ⟨13, _⟩ => ⟨S131072x128, .f32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S1048576x1, .i32⟩
  | .hbm, ⟨22, _⟩ => ⟨S1048576x128, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x128, .f32⟩
  | .hbm, ⟨32, _⟩ => ⟨S1048576x128, .f32⟩
  | .hbm, ⟨33, _⟩ => ⟨S_, .f32⟩
  | .hbm, ⟨34, _⟩ => ⟨S131072x128, .f32⟩
  | .hbm, ⟨35, _⟩ => ⟨S1048576x1, .i32⟩
  | .hbm, ⟨36, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S131072x128 : S_.BroadcastsInDim S131072x128 (![] : Fin 0 → Fin S131072x128.rank)
  dot_S4096x128_S128x128_S4096x128_1_0_0_1_n_n_wf : DotDims.WF S4096x128 S128x128 S4096x128 [1] [0] [0] [1] [] []
  gather_S131072x128_S1048576x1_S1048576x128_1_0_n_n_0_1_1128_wf : GatherDims.WF S131072x128 S1048576x1 S1048576x128 [1] [0] [] [0] [] 1 ![1, 128]
  scatter_S131072x128_S1048576x1_S1048576x128_1_0_0_1_wf : ScatterDims.WF S131072x128 S1048576x1 S1048576x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S131072x128.size a
  hwx0_9 : ∀ i : grid0.Coords, EltTy.bits .f32 = 32 ∨ (Rect.block (s := S131072x128) S4096x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x128.size a ≤ S131072x128.size a
  hwx0_10 : ∀ i : grid0.Coords, EltTy.bits .f32 = 32 ∨ (Rect.block (s := S131072x128) S4096x128.size (cc0_transform_10 i) (hinb0_10 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S131072x128_S1048576x1_S1048576x128_1_0_n_n_0_1_1128 : GatherDims S131072x128 S1048576x1 S1048576x128 where
  offsetDims := [1]
  collapsedSliceDims := [0]
  operandBatchingDims := []
  startIndicesBatchingDims := []
  startIndexMap := [0]
  indexVectorDim := 1
  sliceSizes := ![1, 128]
  wf := gather_S131072x128_S1048576x1_S1048576x128_1_0_n_n_0_1_1128_wf
def scatter_S131072x128_S1048576x1_S1048576x128_1_0_0_1 : ScatterDims S131072x128 S1048576x1 S1048576x128 where
  updateWindowDims := [1]
  insertedWindowDims := [0]
  scatterDimsToOperandDims := [0]
  indexVectorDim := 1
  wf := scatter_S131072x128_S1048576x1_S1048576x128_1_0_0_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S4096x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S4096x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S128 : Shape := ⟨1, ![128]⟩
abbrev S1048576 : Shape := ⟨1, ![1048576]⟩
abbrev S1x128 : Shape := ⟨2, ![1, 128]⟩
abbrev S_ : Shape := ⟨0, ![]⟩
abbrev S1048576x1 : Shape := ⟨2, ![1048576, 1]⟩
abbrev S1048576x128 : Shape := ⟨2, ![1048576, 128]⟩

abbrev nBuf : Space → Nat
  | .hbm => 63
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S131072x128, .f32⟩
  | .hbm, ⟨13, _⟩ => ⟨S1x128, .f32⟩
  | .hbm, ⟨14, _⟩ => ⟨S131072x128, .f32⟩
  | .hbm, ⟨15, _⟩ => ⟨S131072x128, .f32⟩
  | .hbm, ⟨16, _⟩ => ⟨S_, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S1x128, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S1x128, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S131072x128, .f32⟩
  | .hbm, ⟨34, _⟩ => ⟨S1x128, .f32⟩
  | .hbm, ⟨35, _⟩ => ⟨S131072x128, .f32⟩
  | .hbm, ⟨36, _⟩ => ⟨S131072x128, .f32⟩
  | .hbm, ⟨37, _⟩ => ⟨S_, .f32⟩
  | .hbm, ⟨38, _⟩ => ⟨S131072x128, .f32⟩
  | .hbm, ⟨39, _⟩ => ⟨S131072x128, .f32⟩
  | .hbm, ⟨40, _⟩ => ⟨S_, .i32⟩
  | .hbm, ⟨41, _⟩ => ⟨S1048576, .i32⟩
  | .hbm, ⟨42, _⟩ => ⟨S1048576, .i1⟩
  | .hbm, ⟨43, _⟩ => ⟨S_, .i32⟩
  | .hbm, ⟨44, _⟩ => ⟨S1048576, .i32⟩
  | .hbm, ⟨45, _⟩ => ⟨S1048576, .i32⟩
  | .hbm, ⟨46, _⟩ => ⟨S1048576, .i32⟩
  | .hbm, ⟨47, _⟩ => ⟨S1048576x1, .i32⟩
  | .hbm, ⟨48, _⟩ => ⟨S1048576x128, .f32⟩
  | .hbm, ⟨49, _⟩ => ⟨S_, .i32⟩
  | .hbm, ⟨50, _⟩ => ⟨S1048576, .i32⟩
  | .hbm, ⟨51, _⟩ => ⟨S1048576, .i1⟩
  | .hbm, ⟨52, _⟩ => ⟨S_, .i32⟩
  | .hbm, ⟨53, _⟩ => ⟨S1048576, .i32⟩
  | .hbm, ⟨54, _⟩ => ⟨S1048576, .i32⟩
  | .hbm, ⟨55, _⟩ => ⟨S1048576, .i32⟩
  | .hbm, ⟨56, _⟩ => ⟨S1048576x1, .i32⟩
  | .hbm, ⟨57, _⟩ => ⟨S1048576x128, .f32⟩
  | .hbm, ⟨58, _⟩ => ⟨S1048576x128, .f32⟩
  | .hbm, ⟨59, _⟩ => ⟨S_, .f32⟩
  | .hbm, ⟨60, _⟩ => ⟨S131072x128, .f32⟩
  | .hbm, ⟨61, _⟩ => ⟨S1048576x1, .i32⟩
  | .hbm, ⟨62, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_cst : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call3_cst : Ref sig .tc := ⟨.hbm, 37, rfl⟩
abbrev main_call3_v0 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_1 : Ref sig .tc := ⟨.hbm, 49, rfl⟩
abbrev main_v27 : Ref sig .tc := ⟨.hbm, 50, rfl⟩
abbrev main_v28 : Ref sig .tc := ⟨.hbm, 51, rfl⟩
abbrev main_c_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  dot_S131072x128_S128x128_S131072x128_1_0_0_1_n_n_wf : DotDims.WF S131072x128 S128x128 S131072x128 [1] [0] [0] [1] [] []
  gather_S131072x128_S1048576x1_S1048576x128_1_0_n_n_0_1_1128_wf : GatherDims.WF S131072x128 S1048576x1 S1048576x128 [1] [0] [] [0] [] 1 ![1, 128]
  scatter_S131072x128_S1048576x1_S1048576x128_1_0_0_1_wf : ScatterDims.WF S131072x128 S1048576x1 S1048576x128 [1] [0] [0] 1

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def gather_S131072x128_S1048576x1_S1048576x128_1_0_n_n_0_1_1128 : GatherDims S131072x128 S1048576x1 S1048576x128 where
  offsetDims := [1]
  collapsedSliceDims := [0]
  operandBatchingDims := []
  startIndicesBatchingDims := []
  startIndexMap := [0]
  indexVectorDim := 1
  sliceSizes := ![1, 128]
  wf := gather_S131072x128_S1048576x1_S1048576x128_1_0_n_n_0_1_1128_wf
def scatter_S131072x128_S1048576x1_S1048576x128_1_0_0_1 : ScatterDims S131072x128 S1048576x1 S1048576x128 where
  updateWindowDims := [1]
  insertedWindowDims := [0]
  scatterDimsToOperandDims := [0]
  indexVectorDim := 1
  wf := scatter_S131072x128_S1048576x1_S1048576x128_1_0_0_1_wf

class Facts : Prop extends Facts₀ where

variable [Facts]
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibDenseLayer.lean ====
/-
  A dense layer read at an entry.

  For a row `x`, a weight matrix `W` and a bias `b`, entry `c` of `x · W + b` is the sum over the contracted coordinate `h`
  of `x h * W h c`, plus `b c`, on the extended reals. A matrix product of `[n, k]` by `[k, o]` into a zero accumulator has
  at entry `(p, q)` the sum over `h` of the left operand at `(p, h)` times the right at `(h, q)`; rounding an operand to a
  narrower float format first is the identity on the extended reals; a bias held as a row `[1, o]` and broadcast down
  the `n` rows contributes its entry `(0, q)`. So entry `(p, q)` of such a layer is `affine` of row `p` of the left operand.
-/
import proofs.«118211_j33844342293141_1_alg».proof.Proof.LibMatProduct
import Idealize.ShloMosaic.Lib.ValueIdx
import Idealize.ShloMosaic.Lib.ValueLayout
import Idealize.ShloMosaic.Lib.Pipeline.Value

noncomputable section

namespace Cert.LibDenseLayer

open Idealize.ShloMosaic Idealize.ShloMosaic.ValueIdx

/-- Entry `c` of `x · W + b`: the sum over the contracted coordinate, then the bias. Rows, matrices and biases are plain
    functions of their coordinates, so that a row of an array, a row of a block, a `[n]` bias and a `[1, n]` bias all fit. -/
def affine {k o : ℕ} (x : Fin k → EReal) (W : Fin k → Fin o → EReal) (b : Fin o → EReal) (c : Fin o) : EReal :=
  (∑ h : Fin k, x h * W h c) + b c

/-- Entry `(p, q)` of a matrix product `[n, k] · [k, o]` (the left operand's columns contracted with the right operand's
    rows, no batch axes) into a zero accumulator is `∑ h, X (p, h) * W (h, q)`. -/
theorem matmul_at {n k o : ℕ} {φ₁ φ₂ : FTy} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, k]⟩ φ₁) (W : FVec Ideal ⟨2, ![k, o]⟩ φ₂) (p : Fin n) (q : Fin o) :
    matmul d none X W (constant ⟨2, ![n, o]⟩ .f32 0x00000000#32) (ix2 p q) = ∑ h : Fin k, X (ix2 p h) * W (ix2 h q) :=
  Cert.LibMatProduct.matmul_zero_apply d none hlc hrc hln hrn hlb hrb X W p q

/-- ONE DENSE LAYER at entry `(p, q)`: the product of `X` and `W` (each first rounded to a narrower format) into a zero
    accumulator, plus the bias row `b : [1, o]` broadcast down the rows, is `affine` of row `p` of `X`, of `W` and of the
    bias row, at `q`: `∑ h, X (p, h) * W (h, q) + b (0, q)`. -/
theorem dense_at {n k o : ℕ} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, k]⟩ .f32) (W : FVec Ideal ⟨2, ![k, o]⟩ .f32) (b : FVec Ideal ⟨2, ![1, o]⟩ .f32)
    (hX : FTy.bf16.bits < FTy.f32.bits) (hW : FTy.bf16.bits < FTy.f32.bits)
    (hs : (⟨2, ![1, o]⟩ : Shape).ShapeCasts ⟨2, ![1, o]⟩) (hb : (⟨2, ![1, o]⟩ : Shape).Broadcasts ⟨2, ![n, o]⟩)
    (p : Fin n) (q : Fin o) :
    addf (matmul d none (truncf .bf16 X hX) (truncf .bf16 W hW) (constant ⟨2, ![n, o]⟩ .f32 0x00000000#32))
        (broadcastTo ⟨2, ![n, o]⟩ (shapeCast ⟨2, ![1, o]⟩ b hs) hb) (ix2 p q)
      = affine (fun h => X (ix2 p h)) (fun h c => W (ix2 h c)) (fun c => b (ix2 (0 : Fin 1) c)) q := by
  rw [addf_apply, matmul_at d hlc hrc hln hrn hlb hrb, broadcastTo_1b_ab_apply, shapeCast_self]
  rfl

end Cert.LibDenseLayer

end
-- ==== Proof.RowMlp.lean ====
/-
  Two dense layers, each followed by the ramp `max(·, 0)`, read one row at a time.

  A row `x` of 128 numbers goes through `x ↦ max(x · W + b, 0)` twice. Entry `c` of one layer is the sum over the
  contracted coordinate `h` of `x h * W h c`, plus `b c`, then the maximum with the zero word; everything is on the
  extended reals, and nothing here needs an entry to be finite: no sum is regrouped and no factor is moved.
  Applied to every row of an array `[n, 128]` this is `mlp`: entry `(r, c)` depends on row `r` of the array only, which is
  why a block of rows of the result is the same function of the same block of rows of the input.
-/
import Idealize.ShloMosaic.Lib.ValueIdx
import Idealize.ShloMosaic.PureOps.Ideal

noncomputable section

namespace Cert.RowMlp

open Idealize.ShloMosaic Idealize.ShloMosaic.ValueIdx

/-- One dense layer with its ramp on one row: `max (∑ h, x h * W h c + b c, 0)`. The row, the weights and the bias are
    plain functions of their coordinates, so that a row of an array, a row of a block and a bias of any layout all fit. -/
def layer (x : Fin 128 → EReal) (W : Fin 128 → Fin 128 → EReal) (b : Fin 128 → EReal) (c : Fin 128) : EReal :=
  max ((∑ h : Fin 128, x h * W h c) + b c) (Ideal.ofBits .f32 0x00000000#32)

/-- Two layers in a row: the second layer's input row is the first layer's output row. -/
def twoLayer (x : Fin 128 → EReal) (W0 : Fin 128 → Fin 128 → EReal) (b0 : Fin 128 → EReal)
    (W1 : Fin 128 → Fin 128 → EReal) (b1 : Fin 128 → EReal) (c : Fin 128) : EReal :=
  layer (fun h => layer x W0 b0 h) W1 b1 c

/-- The two layers applied to every row of an array `[n, 128]`: entry `(r, c)` is `twoLayer` of row `r` at `c`. -/
def mlp {n : ℕ} (X : FVec Ideal ⟨2, ![n, 128]⟩ .f32) (W0 : FVec Ideal ⟨2, ![128, 128]⟩ .f32) (b0 : FVec Ideal ⟨1, ![128]⟩ .f32)
    (W1 : FVec Ideal ⟨2, ![128, 128]⟩ .f32) (b1 : FVec Ideal ⟨1, ![128]⟩ .f32) : FVec Ideal ⟨2, ![n, 128]⟩ .f32 :=
  fun i => twoLayer (fun k => X (ix2 (i 0) k)) (fun h c => W0 (ix2 h c)) (fun c => b0 (ix1 c))
    (fun h c => W1 (ix2 h c)) (fun c => b1 (ix1 c)) (i 1)

/-- `mlp` at an entry given by its coordinates. -/
theorem mlp_apply {n : ℕ} (X : FVec Ideal ⟨2, ![n, 128]⟩ .f32) (W0 : FVec Ideal ⟨2, ![128, 128]⟩ .f32) (b0 : FVec Ideal ⟨1, ![128]⟩ .f32)
    (W1 : FVec Ideal ⟨2, ![128, 128]⟩ .f32) (b1 : FVec Ideal ⟨1, ![128]⟩ .f32) (r : Fin n) (c : Fin 128) :
    mlp X W0 b0 W1 b1 (ix2 r c) = twoLayer (fun k => X (ix2 r k)) (fun h c => W0 (ix2 h c)) (fun c => b0 (ix1 c))
      (fun h c => W1 (ix2 h c)) (fun c => b1 (ix1 c)) c := rfl

/-- `twoLayer` depends on its row, weights and biases only through their values. -/
theorem twoLayer_congr {x x' : Fin 128 → EReal} {W0 W0' : Fin 128 → Fin 128 → EReal} {b0 b0' : Fin 128 → EReal}
    {W1 W1' : Fin 128 → Fin 128 → EReal} {b1 b1' : Fin 128 → EReal} {c c' : Fin 128}
    (hx : ∀ k, x k = x' k) (hW0 : ∀ h c, W0 h c = W0' h c) (hb0 : ∀ c, b0 c = b0' c)
    (hW1 : ∀ h c, W1 h c = W1' h c) (hb1 : ∀ c, b1 c = b1' c) (hc : c = c') :
    twoLayer x W0 b0 W1 b1 c = twoLayer x' W0' b0' W1' b1' c' := by
  obtain rfl : x = x' := funext hx
  obtain rfl : W0 = W0' := funext fun h => funext (hW0 h)
  obtain rfl : b0 = b0' := funext hb0
  obtain rfl : W1 = W1' := funext fun h => funext (hW1 h)
  obtain rfl : b1 = b1' := funext hb1
  rw [hc]

end Cert.RowMlp

end
-- ==== Proof.KernelBlock.lean ====
/-
  What the kernel body stores, read at an entry.

  At one grid point the body holds a block of 4096 rows of the input and the four weight matrices and biases whole. Each
  of its two stores is two dense layers with a ramp after each: a matrix product into a zero accumulator (its operands
  first rounded to a narrower float format, which is the identity on the extended reals), plus the bias, held as a
  vector `[128]`, recast as a row `[1, 128]` and broadcast down the 4096 rows, then the maximum with the zero word. So
  entry `(p, q)` of a stored block is `twoLayer` of row `p` of the input block at `q`.
-/
import proofs.«118211_j33844342293141_1_alg».proof.Proof.Gen.KernelIdeal.Skeleton
import proofs.«118211_j33844342293141_1_alg».proof.Proof.LibDenseLayer
import proofs.«118211_j33844342293141_1_alg».proof.Proof.RowMlp
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx Cert.RowMlp

/-- One layer of the body at entry `(p, q)`: the product of a block `[4096, 128]` by a matrix `[128, 128]` into a zero
    accumulator, plus the bias vector broadcast down the rows, then the ramp, is `layer` of row `p` of the block. -/
theorem layer_at (X : FVec Ideal S4096x128 .bf16) (W : FVec Ideal S128x128 .bf16) (b : Vec Ideal S128 .f32)
    (p : Fin 4096) (q : Fin 128) :
    maximumf (addf (matmul dot_S4096x128_S128x128_S4096x128_1_0_0_1_n_n none X W (constant (F := Ideal) S4096x128 .f32 0x00000000#32))
        (broadcastTo S4096x128 (shapeCast S1x128 b shapeCasts_S128_S1x128) broadcasts_S1x128_S4096x128))
      (broadcast S4096x128 (Scalar.ofBits (F := Ideal) .f32 0x00000000#32)) (ix2 p q)
      = layer (fun k => X (ix2 p k)) (fun h c => W (ix2 h c)) (fun c => b (ix1 c)) q := by
  rw [maximumf_apply, addf_apply,
    Cert.LibDenseLayer.matmul_at dot_S4096x128_S128x128_S4096x128_1_0_0_1_n_n rfl rfl rfl rfl rfl rfl,
    broadcastTo_1b_ab_apply, shapeCast_a_1a_apply]
  rfl

/-- The first store's block at entry `(p, q)`: the two layers of the first branch on row `p` of the input block. -/
theorem pay3_at (x0 : Vec Ideal S4096x128 .f32) (x1 : Vec Ideal S128x128 .f32) (x2 : Vec Ideal S128 .f32)
    (x3 : Vec Ideal S128x128 .f32) (x4 : Vec Ideal S128 .f32) (p : Fin 4096) (q : Fin 128) :
    k0_pay3 (F := Ideal) x0 x1 x2 x3 x4 (ix2 p q)
      = twoLayer (fun k => x0 (ix2 p k)) (fun h c => x1 (ix2 h c)) (fun c => x2 (ix1 c))
          (fun h c => x3 (ix2 h c)) (fun c => x4 (ix1 c)) q := by
  unfold k0_pay3 k0_pay2
  refine (layer_at _ _ _ p q).trans ?_
  unfold twoLayer
  refine congrArg (fun x => layer x _ _ q) (funext fun h => ?_)
  exact (layer_at _ _ _ p h)

/-- The second store's block at entry `(p, q)`: the two layers of the second branch on row `p` of the input block. -/
theorem pay1_at (x0 : Vec Ideal S4096x128 .f32) (x5 : Vec Ideal S128x128 .f32) (x6 : Vec Ideal S128 .f32)
    (x7 : Vec Ideal S128x128 .f32) (x8 : Vec Ideal S128 .f32) (p : Fin 4096) (q : Fin 128) :
    k0_pay1 (F := Ideal) (k0_pay4 x0 x5 x6 x7) x8 (ix2 p q)
      = twoLayer (fun k => x0 (ix2 p k)) (fun h c => x5 (ix2 h c)) (fun c => x6 (ix1 c))
          (fun h c => x7 (ix2 h c)) (fun c => x8 (ix1 c)) q := by
  unfold k0_pay1 k0_pay4 k0_pay2
  refine (layer_at _ _ _ p q).trans ?_
  unfold twoLayer
  refine congrArg (fun x => layer x _ _ q) (funext fun h => ?_)
  exact (layer_at _ _ _ p h)

end Cert.KernelIdeal.Block

end
-- ==== Proof.KernelArrays.lean ====
/-
  From blocks to arrays: each of the kernel's two output arrays is the two layers applied to every row of the input.

  The grid has 32 points. At point `t` the input window holds rows `t * 4096 … t * 4096 + 4095` of the input, each weight
  and bias window holds its array whole, and each output window writes back rows `t * 4096 … t * 4096 + 4095` of its
  array. An entry of the two layers depends on its own row of the input only, so what point `t` writes back is block `t`
  of one whole-array function, and the 32 blocks fill the array.
-/
import proofs.«118211_j33844342293141_1_alg».proof.Proof.Gen.KernelIdeal.Frame
import proofs.«118211_j33844342293141_1_alg».proof.Proof.KernelBlock
import proofs.«118211_j33844342293141_1_alg».proof.Proof.RowMlp
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem Cert.RowMlp
open Idealize.ShloMosaic.Pipeline (Dat Cfg Window)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the input and the two outputs move down the rows with the point, one
    block of 4096 rows per point, and every weight and bias window stays at its one block. -/
theorem idx_facts : ∀ t : Fin cfg0.N,
    win0_0.index t (0 : Fin 2) = t.val
    ∧ win0_0.index t (1 : Fin 2) = 0
    ∧ win0_9.index t (0 : Fin 2) = t.val
    ∧ win0_9.index t (1 : Fin 2) = 0
    ∧ win0_10.index t (0 : Fin 2) = t.val
    ∧ win0_10.index t (1 : Fin 2) = 0
    ∧ win0_1.index t (0 : Fin 2) = 0
    ∧ win0_1.index t (1 : Fin 2) = 0
    ∧ win0_3.index t (0 : Fin 2) = 0
    ∧ win0_3.index t (1 : Fin 2) = 0
    ∧ win0_5.index t (0 : Fin 2) = 0
    ∧ win0_5.index t (1 : Fin 2) = 0
    ∧ win0_7.index t (0 : Fin 2) = 0
    ∧ win0_7.index t (1 : Fin 2) = 0
    ∧ win0_2.index t (0 : Fin 1) = 0
    ∧ win0_4.index t (0 : Fin 1) = 0
    ∧ win0_6.index t (0 : Fin 1) = 0
    ∧ win0_8.index t (0 : Fin 1) = 0 :=
  (by decide +kernel : ∀ t : Fin grid0.N, _)

/-! ## The input windows' blocks, read off their arrays -/

/-- Row `p` of the input block at point `t` is row `t * 4096 + p` of the input array. -/
theorem read0 (c : Dev nD) (t : Fin cfg0.N) (p : Fin 4096) (k : Fin 128) (r : Fin 131072) (hr : r.val = t.val * 4096 + p.val) :
    iblk m c 0 t (ix2 p k) = V m c main_arg0 (ix2 r k) := by
  show V m c main_arg0 (((cfg0.win 0).blk t).view.emb (ix2 p k)) = V m c main_arg0 (ix2 r k)
  obtain ⟨e0, e1, -, -, -, -, -, -, -, -, -, -, -, -, -, -, -, -⟩ := idx_facts t
  refine congrArg (V m c main_arg0) (funext fun a => Fin.ext ?_)
  match a with
  | ⟨0, _⟩ => show win0_0.index t (0 : Fin 2) * 4096 + 1 * p.val = r.val; omega
  | ⟨1, _⟩ => show win0_0.index t (1 : Fin 2) * 128 + 1 * k.val = k.val; omega

/-- Window 1 holds its matrix whole at every point. -/
theorem read1 (c : Dev nD) (t : Fin cfg0.N) (h k : Fin 128) :
    iblk m c 1 t (ix2 h k) = V m c main_arg1 (ix2 h k) := by
  show V m c main_arg1 (((cfg0.win 1).blk t).view.emb (ix2 h k)) = V m c main_arg1 (ix2 h k)
  obtain ⟨-, -, -, -, -, -, e6, e7, -, -, -, -, -, -, -, -, -, -⟩ := idx_facts t
  refine congrArg (V m c main_arg1) (funext fun a => Fin.ext ?_)
  match a with
  | ⟨0, _⟩ => show win0_1.index t (0 : Fin 2) * 128 + 1 * h.val = h.val; omega
  | ⟨1, _⟩ => show win0_1.index t (1 : Fin 2) * 128 + 1 * k.val = k.val; omega

/-- Window 3 holds its matrix whole at every point. -/
theorem read3 (c : Dev nD) (t : Fin cfg0.N) (h k : Fin 128) :
    iblk m c 3 t (ix2 h k) = V m c main_arg3 (ix2 h k) := by
  show V m c main_arg3 (((cfg0.win 3).blk t).view.emb (ix2 h k)) = V m c main_arg3 (ix2 h k)
  obtain ⟨-, -, -, -, -, -, -, -, e8, e9, -, -, -, -, -, -, -, -⟩ := idx_facts t
  refine congrArg (V m c main_arg3) (funext fun a => Fin.ext ?_)
  match a with
  | ⟨0, _⟩ => show win0_3.index t (0 : Fin 2) * 128 + 1 * h.val = h.val; omega
  | ⟨1, _⟩ => show win0_3.index t (1 : Fin 2) * 128 + 1 * k.val = k.val; omega

/-- Window 5 holds its matrix whole at every point. -/
theorem read5 (c : Dev nD) (t : Fin cfg0.N) (h k : Fin 128) :
    iblk m c 5 t (ix2 h k) = V m c main_arg5 (ix2 h k) := by
  show V m c main_arg5 (((cfg0.win 5).blk t).view.emb (ix2 h k)) = V m c main_arg5 (ix2 h k)
  obtain ⟨-, -, -, -, -, -, -, -, -, -, e10, e11, -, -, -, -, -, -⟩ := idx_facts t
  refine congrArg (V m c main_arg5) (funext fun a => Fin.ext ?_)
  match a with
  | ⟨0, _⟩ => show win0_5.index t (0 : Fin 2) * 128 + 1 * h.val = h.val; omega
  | ⟨1, _⟩ => show win0_5.index t (1 : Fin 2) * 128 + 1 * k.val = k.val; omega

/-- Window 7 holds its matrix whole at every point. -/
theorem read7 (c : Dev nD) (t : Fin cfg0.N) (h k : Fin 128) :
    iblk m c 7 t (ix2 h k) = V m c main_arg7 (ix2 h k) := by
  show V m c main_arg7 (((cfg0.win 7).blk t).view.emb (ix2 h k)) = V m c main_arg7 (ix2 h k)
  obtain ⟨-, -, -, -, -, -, -, -, -, -, -, -, e12, e13, -, -, -, -⟩ := idx_facts t
  refine congrArg (V m c main_arg7) (funext fun a => Fin.ext ?_)
  match a with
  | ⟨0, _⟩ => show win0_7.index t (0 : Fin 2) * 128 + 1 * h.val = h.val; omega
  | ⟨1, _⟩ => show win0_7.index t (1 : Fin 2) * 128 + 1 * k.val = k.val; omega

/-- Window 2 holds its bias vector whole at every point. -/
theorem read2 (c : Dev nD) (t : Fin cfg0.N) (k : Fin 128) :
    iblk m c 2 t (ix1 k) = V m c main_arg2 (ix1 k) := by
  show V m c main_arg2 (((cfg0.win 2).blk t).view.emb (ix1 k)) = V m c main_arg2 (ix1 k)
  obtain ⟨-, -, -, -, -, -, -, -, -, -, -, -, -, -, e14, -, -, -⟩ := idx_facts t
  refine congrArg (V m c main_arg2) (funext fun a => Fin.ext ?_)
  match a with
  | ⟨0, _⟩ => show win0_2.index t (0 : Fin 1) * 128 + 1 * k.val = k.val; omega

/-- Window 4 holds its bias vector whole at every point. -/
theorem read4 (c : Dev nD) (t : Fin cfg0.N) (k : Fin 128) :
    iblk m c 4 t (ix1 k) = V m c main_arg4 (ix1 k) := by
  show V m c main_arg4 (((cfg0.win 4).blk t).view.emb (ix1 k)) = V m c main_arg4 (ix1 k)
  obtain ⟨-, -, -, -, -, -, -, -, -, -, -, -, -, -, -, e15, -, -⟩ := idx_facts t
  refine congrArg (V m c main_arg4) (funext fun a => Fin.ext ?_)
  match a with
  | ⟨0, _⟩ => show win0_4.index t (0 : Fin 1) * 128 + 1 * k.val = k.val; omega

/-- Window 6 holds its bias vector whole at every point. -/
theorem read6 (c : Dev nD) (t : Fin cfg0.N) (k : Fin 128) :
    iblk m c 6 t (ix1 k) = V m c main_arg6 (ix1 k) := by
  show V m c main_arg6 (((cfg0.win 6).blk t).view.emb (ix1 k)) = V m c main_arg6 (ix1 k)
  obtain ⟨-, -, -, -, -, -, -, -, -, -, -, -, -, -, -, -, e16, -⟩ := idx_facts t
  refine congrArg (V m c main_arg6) (funext fun a => Fin.ext ?_)
  match a with
  | ⟨0, _⟩ => show win0_6.index t (0 : Fin 1) * 128 + 1 * k.val = k.val; omega

/-- Window 8 holds its bias vector whole at every point. -/
theorem read8 (c : Dev nD) (t : Fin cfg0.N) (k : Fin 128) :
    iblk m c 8 t (ix1 k) = V m c main_arg8 (ix1 k) := by
  show V m c main_arg8 (((cfg0.win 8).blk t).view.emb (ix1 k)) = V m c main_arg8 (ix1 k)
  obtain ⟨-, -, -, -, -, -, -, -, -, -, -, -, -, -, -, -, -, e17⟩ := idx_facts t
  refine congrArg (V m c main_arg8) (funext fun a => Fin.ext ?_)
  match a with
  | ⟨0, _⟩ => show win0_8.index t (0 : Fin 1) * 128 + 1 * k.val = k.val; omega

/-! ## Output window 9 -/

/-- What point `t` writes back to window 9's array is block `t` of the two layers applied to every row of the input:
    the block's row `p` is row `t * 4096 + p` of the array, and the weights and biases are held whole. -/
theorem flushed9_eq (c : Dev nD) (t : Fin cfg0.N) :
    (dats m 0 c).flushed 9 t = ((cfg0.win 9).blk t).view.read (Elt Ideal) (mlp (n := 131072) (V m c main_arg0) (V m c main_arg1) (V m c main_arg2) (V m c main_arg3) (V m c main_arg4)) := by
  show (cfg0.win 9).cut (grid0.coords t) ((dats m 0 c).after 9 t) = _
  rw [after0_9]
  unfold out0_9
  rw [View.canon_unit_zero hz2]
  simp only [View.ld_unit_zero (S := S4096x128) hz2, View.ld_unit_zero (S := S128x128) hz2, View.ld_unit_zero (S := S128) hz1]
  funext j
  obtain ⟨p, q, rfl⟩ : ∃ (p : Fin 4096) (q : Fin 128), j = ix2 p q := ⟨j 0, j 1, eq_ix2 j⟩
  obtain ⟨-, -, e2, e3, -, -, -, -, -, -, -, -, -, -, -, -, -, -⟩ := idx_facts t
  refine (Block.pay3_at (iblk m c 0 t) (iblk m c 1 t) (iblk m c 2 t) (iblk m c 3 t) (iblk m c 4 t) p q).trans ?_
  show twoLayer _ _ _ _ _ q
    = twoLayer (fun k => V m c main_arg0 (ix2 ((((cfg0.win 9).blk t).view.emb (ix2 p q)) 0) k)) (fun h k => V m c main_arg1 (ix2 h k))
        (fun k => V m c main_arg2 (ix1 k)) (fun h k => V m c main_arg3 (ix2 h k)) (fun k => V m c main_arg4 (ix1 k))
        ((((cfg0.win 9).blk t).view.emb (ix2 p q)) 1)
  have hr : ((((cfg0.win 9).blk t).view.emb (ix2 p q)) 0).val = t.val * 4096 + p.val := by
    show win0_9.index t (0 : Fin 2) * 4096 + 1 * p.val = t.val * 4096 + p.val
    omega
  have hq : q = (((cfg0.win 9).blk t).view.emb (ix2 p q)) 1 := Fin.ext (by
    show q.val = win0_9.index t (1 : Fin 2) * 128 + 1 * q.val
    omega)
  exact twoLayer_congr (fun k => read0 m c t p k _ hr) (fun h k => read1 m c t h k) (fun k => read2 m c t k)
    (fun h k => read3 m c t h k) (fun k => read4 m c t k) hq

/-- An index of the array is in point `t`'s block iff each coordinate is in the block's range on its axis. -/
theorem mem_blk9 (t : Fin cfg0.N) (i : S131072x128.Idx) :
    i ∈ ((cfg0.win 9).blk t).view.set ↔ ∀ a : Fin 2, win0_9.index t a * S4096x128.size a ≤ (i a).val ∧ (i a).val < win0_9.index t a * S4096x128.size a + S4096x128.size a := by
  show i ∈ ((View.whole main_v0_0).slice (win0_9.rect t)).set ↔ _
  rw [View.set_slice_whole, Rect.mem_set_unit]
  exact Iff.rfl

/-- The 32 blocks of 4096 rows fill the array: row `r` is in the block of point `r / 4096`. -/
theorem cover9 (i : S131072x128.Idx) :
    ∃ t : Fin cfg0.N, (cfg0.win 9).flush t = true ∧ i ∈ ((cfg0.win 9).blk t).view.set := by
  have hi0 : (i 0).val < 131072 := (i 0).isLt
  have hi1 : (i 1).val < 128 := (i 1).isLt
  have hN : cfg0.N = 32 := N_0
  have ht : (i 0).val / 4096 < cfg0.N := by rw [hN]; omega
  refine ⟨⟨(i 0).val / 4096, ht⟩, flush0_9 _, ?_⟩
  rw [mem_blk9]
  obtain ⟨-, -, e2, e3, -, -, -, -, -, -, -, -, -, -, -, -, -, -⟩ := idx_facts ⟨(i 0).val / 4096, ht⟩
  intro a
  match a with
  | ⟨0, _⟩ =>
    show win0_9.index ⟨(i 0).val / 4096, ht⟩ (0 : Fin 2) * 4096 ≤ (i 0).val ∧ (i 0).val < win0_9.index ⟨(i 0).val / 4096, ht⟩ (0 : Fin 2) * 4096 + 4096
    rw [e2]
    show (i 0).val / 4096 * 4096 ≤ (i 0).val ∧ (i 0).val < (i 0).val / 4096 * 4096 + 4096
    omega
  | ⟨1, _⟩ =>
    show win0_9.index ⟨(i 0).val / 4096, ht⟩ (1 : Fin 2) * 128 ≤ (i 1).val ∧ (i 1).val < win0_9.index ⟨(i 0).val / 4096, ht⟩ (1 : Fin 2) * 128 + 128
    rw [e3]
    omega

/-- So window 9's array ends holding the two layers applied to every row of the input. -/
theorem final9 (c : Dev nD) :
    (dats m 0 c).arrAt 9 cfg0.N = mlp (n := 131072) (V m c main_arg0) (V m c main_arg1) (V m c main_arg2) (V m c main_arg3) (V m c main_arg4) :=
  (dats m 0 c).arrAt_eq_of_cover 9 (mlp (n := 131072) (V m c main_arg0) (V m c main_arg1) (V m c main_arg2) (V m c main_arg3) (V m c main_arg4)) (fun t _ => flushed9_eq m c t) cover9

/-! ## Output window 10 -/

/-- What point `t` writes back to window 10's array is block `t` of the two layers applied to every row of the input:
    the block's row `p` is row `t * 4096 + p` of the array, and the weights and biases are held whole. -/
theorem flushed10_eq (c : Dev nD) (t : Fin cfg0.N) :
    (dats m 0 c).flushed 10 t = ((cfg0.win 10).blk t).view.read (Elt Ideal) (mlp (n := 131072) (V m c main_arg0) (V m c main_arg5) (V m c main_arg6) (V m c main_arg7) (V m c main_arg8)) := by
  show (cfg0.win 10).cut (grid0.coords t) ((dats m 0 c).after 10 t) = _
  rw [after0_10]
  unfold out0_10
  rw [View.canon_unit_zero hz2]
  simp only [View.ld_unit_zero (S := S4096x128) hz2, View.ld_unit_zero (S := S128x128) hz2, View.ld_unit_zero (S := S128) hz1]
  funext j
  obtain ⟨p, q, rfl⟩ : ∃ (p : Fin 4096) (q : Fin 128), j = ix2 p q := ⟨j 0, j 1, eq_ix2 j⟩
  obtain ⟨-, -, -, -, e4, e5, -, -, -, -, -, -, -, -, -, -, -, -⟩ := idx_facts t
  refine (Block.pay1_at (iblk m c 0 t) (iblk m c 5 t) (iblk m c 6 t) (iblk m c 7 t) (iblk m c 8 t) p q).trans ?_
  show twoLayer _ _ _ _ _ q
    = twoLayer (fun k => V m c main_arg0 (ix2 ((((cfg0.win 10).blk t).view.emb (ix2 p q)) 0) k)) (fun h k => V m c main_arg5 (ix2 h k))
        (fun k => V m c main_arg6 (ix1 k)) (fun h k => V m c main_arg7 (ix2 h k)) (fun k => V m c main_arg8 (ix1 k))
        ((((cfg0.win 10).blk t).view.emb (ix2 p q)) 1)
  have hr : ((((cfg0.win 10).blk t).view.emb (ix2 p q)) 0).val = t.val * 4096 + p.val := by
    show win0_10.index t (0 : Fin 2) * 4096 + 1 * p.val = t.val * 4096 + p.val
    omega
  have hq : q = (((cfg0.win 10).blk t).view.emb (ix2 p q)) 1 := Fin.ext (by
    show q.val = win0_10.index t (1 : Fin 2) * 128 + 1 * q.val
    omega)
  exact twoLayer_congr (fun k => read0 m c t p k _ hr) (fun h k => read5 m c t h k) (fun k => read6 m c t k)
    (fun h k => read7 m c t h k) (fun k => read8 m c t k) hq

/-- An index of the array is in point `t`'s block iff each coordinate is in the block's range on its axis. -/
theorem mem_blk10 (t : Fin cfg0.N) (i : S131072x128.Idx) :
    i ∈ ((cfg0.win 10).blk t).view.set ↔ ∀ a : Fin 2, win0_10.index t a * S4096x128.size a ≤ (i a).val ∧ (i a).val < win0_10.index t a * S4096x128.size a + S4096x128.size a := by
  show i ∈ ((View.whole main_v0_1).slice (win0_10.rect t)).set ↔ _
  rw [View.set_slice_whole, Rect.mem_set_unit]
  exact Iff.rfl

/-- The 32 blocks of 4096 rows fill the array: row `r` is in the block of point `r / 4096`. -/
theorem cover10 (i : S131072x128.Idx) :
    ∃ t : Fin cfg0.N, (cfg0.win 10).flush t = true ∧ i ∈ ((cfg0.win 10).blk t).view.set := by
  have hi0 : (i 0).val < 131072 := (i 0).isLt
  have hi1 : (i 1).val < 128 := (i 1).isLt
  have hN : cfg0.N = 32 := N_0
  have ht : (i 0).val / 4096 < cfg0.N := by rw [hN]; omega
  refine ⟨⟨(i 0).val / 4096, ht⟩, flush0_10 _, ?_⟩
  rw [mem_blk10]
  obtain ⟨-, -, -, -, e4, e5, -, -, -, -, -, -, -, -, -, -, -, -⟩ := idx_facts ⟨(i 0).val / 4096, ht⟩
  intro a
  match a with
  | ⟨0, _⟩ =>
    show win0_10.index ⟨(i 0).val / 4096, ht⟩ (0 : Fin 2) * 4096 ≤ (i 0).val ∧ (i 0).val < win0_10.index ⟨(i 0).val / 4096, ht⟩ (0 : Fin 2) * 4096 + 4096
    rw [e4]
    show (i 0).val / 4096 * 4096 ≤ (i 0).val ∧ (i 0).val < (i 0).val / 4096 * 4096 + 4096
    omega
  | ⟨1, _⟩ =>
    show win0_10.index ⟨(i 0).val / 4096, ht⟩ (1 : Fin 2) * 128 ≤ (i 1).val ∧ (i 1).val < win0_10.index ⟨(i 0).val / 4096, ht⟩ (1 : Fin 2) * 128 + 128
    rw [e5]
    omega

/-- So window 10's array ends holding the two layers applied to every row of the input. -/
theorem final10 (c : Dev nD) :
    (dats m 0 c).arrAt 10 cfg0.N = mlp (n := 131072) (V m c main_arg0) (V m c main_arg5) (V m c main_arg6) (V m c main_arg7) (V m c main_arg8) :=
  (dats m 0 c).arrAt_eq_of_cover 10 (mlp (n := 131072) (V m c main_arg0) (V m c main_arg5) (V m c main_arg6) (V m c main_arg7) (V m c main_arg8)) (fun t _ => flushed10_eq m c t) cover10

end Cert.KernelIdeal.Arrays

end
-- ==== Proof.Tail.lean ====
/-
  The lines after the kernel: gather, multiply, scatter-add, as one function of the two arrays the kernel wrote.

  After the region the program wraps each index of `ind_a` and `ind_b` that is negative by adding 131072, gathers the rows
  those indices name from the two arrays the kernel wrote, multiplies the gathered rows entry by entry, and adds each product
  row into a zero array at the row `ind_out` names. The reference ends with the very same lines, applied to its own two
  arrays, so these lines are kept as ONE function `tail` of the two arrays and the three index vectors and never opened:
  two programs whose arrays are equal have equal results.
-/
import proofs.«118211_j33844342293141_1_alg».proof.Proof.Gen.KernelIdeal.Frame
import proofs.«118211_j33844342293141_1_alg».proof.Proof.KernelArrays
import proofs.«118211_j33844342293141_1_alg».proof.Proof.RowMlp
import Idealize.ShloMosaic.Lib.StableHlo.Run
import Idealize.ShloMosaic.Lib.Pipeline.Value
import Idealize.ShloMosaic.PureOps.Ideal

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo Cert.RowMlp

/-- The start indices a gather is given: an index vector with each negative entry wrapped by adding 131072, as a column. -/
def starts (a : (⟨S1048576, .i32⟩ : BufTy).Contents (Elt Ideal)) : (⟨S1048576x1, .i32⟩ : BufTy).Contents (Elt Ideal) :=
  broadcastInDim S1048576x1 ![0] bcast_S1048576_S1048576x1_0
    (select (cmpi .slt a (broadcastInDim S1048576 ![] bcast_S_S1048576 (constantI S_ 32 0#32)))
      (addi a (broadcastInDim S1048576 ![] bcast_S_S1048576 (constantI S_ 32 131072#32))) a)

/-- The lines after the kernel as one function: rows of `X1` at `a` times rows of `X2` at `b`, added into a zero array at
    the rows `o` names. -/
def tail (X1 X2 : (⟨S131072x128, .f32⟩ : BufTy).Contents (Elt Ideal)) (a b o : (⟨S1048576, .i32⟩ : BufTy).Contents (Elt Ideal)) : (⟨S131072x128, .f32⟩ : BufTy).Contents (Elt Ideal) :=
  Host.scatterAdd scatter_S131072x128_S1048576x1_S1048576x128_1_0_0_1
    (broadcastInDim S131072x128 ![] bcast_S_S131072x128 (constant (F := Ideal) S_ .f32 0x00000000#32))
    (broadcastInDim S1048576x1 ![0] bcast_S1048576_S1048576x1_0 o)
    (mulf (Host.gather gather_S131072x128_S1048576x1_S1048576x128_1_0_n_n_0_1_1128 X1 (starts a))
      (Host.gather gather_S131072x128_S1048576x1_S1048576x128_1_0_n_n_0_1_1128 X2 (starts b)))

variable (m : (ℓ : Loc nD τ sig) → Buf (Elt Ideal) ℓ) (ρ : Dev nD → PrngReg)

/-- The two layers of the first branch, of the argument arrays as launched. -/
abbrev X1 (c : Dev nD) : (⟨S131072x128, .f32⟩ : BufTy).Contents (Elt Ideal) :=
  mlp (n := 131072) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
/-- The two layers of the second branch, of the argument arrays as launched. -/
abbrev X2 (c : Dev nD) : (⟨S131072x128, .f32⟩ : BufTy).Contents (Elt Ideal) :=
  mlp (n := 131072) (m ((c.tc : Thread nD τ).loc main_arg0)) (m ((c.tc : Thread nD τ).loc main_arg5)) (m ((c.tc : Thread nD τ).loc main_arg6))
    (m ((c.tc : Thread nD τ).loc main_arg7)) (m ((c.tc : Thread nD τ).loc main_arg8))

set_option maxHeartbeats 4000000 in
/-- The program's result after the lines that follow the region: `tail` of the two arrays the kernel wrote, which are the
    two layers of each branch applied to every row of the input, and of the three index vectors as launched. -/
theorem result_eq (c : Dev nD) :
    Pipeline.afterTail₀ cfgs (dats m) 0 (V0 m) [hostOps1] c main_v18
      = tail (X1 m c) (X2 m c) (m ((c.tc : Thread nD τ).loc main_arg9)) (m ((c.tc : Thread nD τ).loc main_arg10))
          (m ((c.tc : Thread nD τ).loc main_arg11)) := by
  unfold Pipeline.afterTail₀
  simp only [List.flatten_cons, List.flatten_nil, List.append_nil]
  after_results
  have h9 : Pipeline.withArrays (cfgs 0).spec c (V0 m c) (fun w => (dats m 0 c).arrAt w (cfgs 0).N) (Proc.devRef .tc main_v0_0) = X1 m c :=
    (Pipeline.withArrays_arr spec0 launch0.win.arr_inj c _ _ 9).trans (Arrays.final9 m c)
  have h10 : Pipeline.withArrays (cfgs 0).spec c (V0 m c) (fun w => (dats m 0 c).arrAt w (cfgs 0).N) (Proc.devRef .tc main_v0_1) = X2 m c :=
    (Pipeline.withArrays_arr spec0 launch0.win.arr_inj c _ _ 10).trans (Arrays.final10 m c)
  have ha : Pipeline.withArrays (cfgs 0).spec c (V0 m c) (fun w => (dats m 0 c).arrAt w (cfgs 0).N) (Proc.devRef .tc main_arg9) = m ((c.tc : Thread nD τ).loc main_arg9) :=
    Pipeline.withArrays_of_ne spec0 c _ _ main_arg9 (by decide)
  have hb : Pipeline.withArrays (cfgs 0).spec c (V0 m c) (fun w => (dats m 0 c).arrAt w (cfgs 0).N) (Proc.devRef .tc main_arg10) = m ((c.tc : Thread nD τ).loc main_arg10) :=
    Pipeline.withArrays_of_ne spec0 c _ _ main_arg10 (by decide)
  have ho : Pipeline.withArrays (cfgs 0).spec c (V0 m c) (fun w => (dats m 0 c).arrAt w (cfgs 0).N) (Proc.devRef .tc main_arg11) = m ((c.tc : Thread nD τ).loc main_arg11) :=
    Pipeline.withArrays_of_ne spec0 c _ _ main_arg11 (by decide)
  rw [h9, h10, ha, hb, ho]
  rfl

/-- The kernel program's run with its result named: every weakly fair execution terminates with the result array at
    `tail` of the two branches' arrays and the argument arrays unchanged. -/
theorem run : θ_run defs (onTc (τ := τ) (main (F := Ideal))) ⟨m, fun _ => 0, ρ⟩ fun r => ∀ c : Dev nD,
      r.2.mem ((c.tc : Thread nD τ).loc main_v18)
        = tail (X1 m c) (X2 m c) (m ((c.tc : Thread nD τ).loc main_arg9)) (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨((h c).2 main_v18 (Pipeline.mem_restRefs_of main_v18 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.Tail

end
-- ==== Proof.RefRows.lean ====
/-
  The reference's two intermediate arrays are the two layers applied to every row.

  The reference computes each branch on the whole array: a product `[131072, 128] · [128, 128]`, the bias broadcast down
  the rows, the maximum with a zero array, and the same again. Read at an entry `(r, c)` each product is the sum over the
  contracted coordinate of the left operand's row `r` times the right operand's column `c`, so the branch's result at
  `(r, c)` is `twoLayer` of row `r` of the input at `c`.
-/
import proofs.«118211_j33844342293141_1_alg».proof.Proof.Gen.ReferenceIdeal.Read
import proofs.«118211_j33844342293141_1_alg».proof.Proof.RowMlp
import Idealize.ShloMosaic.Lib.ValueIdx

noncomputable section

namespace Cert.ReferenceIdeal.Rows

open Cert.ReferenceIdeal Cert.ReferenceIdeal.Gen Cert.ReferenceIdeal.Read Idealize.ShloMosaic Idealize.ShloMosaic.ValueIdx Cert.RowMlp

/-! ## The first branch -/

/-- The contracted coordinate's index pairs of the first branch's two products, and its two bias reads, at an entry given
    by its coordinates. -/
theorem lidx_v0 (r : Fin 131072) (c k : Fin 128) : lidx_main_v0 (ix2 r c) k = ix2 r k :=
  funext fun a => Fin.ext (by match a with | ⟨0, _⟩ => rfl | ⟨1, _⟩ => rfl)
theorem ridx_v0 (r : Fin 131072) (c k : Fin 128) : ridx_main_v0 (ix2 r c) k = ix2 k c :=
  funext fun a => Fin.ext (by match a with | ⟨0, _⟩ => rfl | ⟨1, _⟩ => rfl)
theorem bidx_v2 (r : Fin 131072) (c : Fin 128) : idx_main_v1 (idx_main_v2 (ix2 r c)) = ix1 c :=
  funext fun a => Fin.ext (by match a with | ⟨0, _⟩ => rfl)
theorem lidx_v5 (r : Fin 131072) (c k : Fin 128) : lidx_main_v5 (ix2 r c) k = ix2 r k :=
  funext fun a => Fin.ext (by match a with | ⟨0, _⟩ => rfl | ⟨1, _⟩ => rfl)
theorem ridx_v5 (r : Fin 131072) (c k : Fin 128) : ridx_main_v5 (ix2 r c) k = ix2 k c :=
  funext fun a => Fin.ext (by match a with | ⟨0, _⟩ => rfl | ⟨1, _⟩ => rfl)
theorem bidx_v7 (r : Fin 131072) (c : Fin 128) : idx_main_v6 (idx_main_v7 (ix2 r c)) = ix1 c :=
  funext fun a => Fin.ext (by match a with | ⟨0, _⟩ => rfl)

/-- The first branch's hidden activations at entry `(r, h)`: one layer of row `r` of the input, at `h`. -/
theorem hidden_v4 (x0 : (⟨S131072x128, .f32⟩ : BufTy).Contents (Elt Ideal)) (x1 : (⟨S128x128, .f32⟩ : BufTy).Contents (Elt Ideal)) (x2 : (⟨S128, .f32⟩ : BufTy).Contents (Elt Ideal)) (r : Fin 131072) (h : Fin 128) :
    val_main_v4 (F := Ideal) x0 x1 x2 (ix2 r h)
      = layer (fun k => x0 (ix2 r k)) (fun h c => x1 (ix2 h c)) (fun c => x2 (ix1 c)) h := by
  rw [val_main_v4_apply, val_main_v3_apply, val_main_v0_apply, val_main_v2_apply, val_main_v1_apply,
    val_main_call0_v0_apply, val_main_call0_cst_apply]
  simp only [lidx_v0, ridx_v0, bidx_v2]
  rfl

/-- The first branch's result is the two layers applied to every row of the input. -/
theorem first_eq (x0 : (⟨S131072x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) :
    val_main_v9 (F := Ideal) x0 x1 x2 x3 x4 = mlp (n := 131072) x0 x1 x2 x3 x4 := by
  funext i
  obtain ⟨r, c, rfl⟩ : ∃ (r : Fin 131072) (c : Fin 128), i = ix2 r c := ⟨i 0, i 1, eq_ix2 i⟩
  rw [val_main_v9_apply, val_main_v8_apply, val_main_v5_apply, val_main_v7_apply, val_main_v6_apply,
    val_main_call1_v0_apply, val_main_call1_cst_apply]
  simp only [lidx_v5, ridx_v5, bidx_v7, hidden_v4]
  rfl

/-! ## The second branch -/

/-- The contracted coordinate's index pairs of the second branch's two products, and its two bias reads, at an entry given
    by its coordinates. -/
theorem lidx_v10 (r : Fin 131072) (c k : Fin 128) : lidx_main_v10 (ix2 r c) k = ix2 r k :=
  funext fun a => Fin.ext (by match a with | ⟨0, _⟩ => rfl | ⟨1, _⟩ => rfl)
theorem ridx_v10 (r : Fin 131072) (c k : Fin 128) : ridx_main_v10 (ix2 r c) k = ix2 k c :=
  funext fun a => Fin.ext (by match a with | ⟨0, _⟩ => rfl | ⟨1, _⟩ => rfl)
theorem bidx_v12 (r : Fin 131072) (c : Fin 128) : idx_main_v11 (idx_main_v12 (ix2 r c)) = ix1 c :=
  funext fun a => Fin.ext (by match a with | ⟨0, _⟩ => rfl)
theorem lidx_v15 (r : Fin 131072) (c k : Fin 128) : lidx_main_v15 (ix2 r c) k = ix2 r k :=
  funext fun a => Fin.ext (by match a with | ⟨0, _⟩ => rfl | ⟨1, _⟩ => rfl)
theorem ridx_v15 (r : Fin 131072) (c k : Fin 128) : ridx_main_v15 (ix2 r c) k = ix2 k c :=
  funext fun a => Fin.ext (by match a with | ⟨0, _⟩ => rfl | ⟨1, _⟩ => rfl)
theorem bidx_v17 (r : Fin 131072) (c : Fin 128) : idx_main_v16 (idx_main_v17 (ix2 r c)) = ix1 c :=
  funext fun a => Fin.ext (by match a with | ⟨0, _⟩ => rfl)

/-- The second branch's hidden activations at entry `(r, h)`: one layer of row `r` of the input, at `h`. -/
theorem hidden_v14 (x0 : (⟨S131072x128, .f32⟩ : BufTy).Contents (Elt Ideal)) (x5 : (⟨S128x128, .f32⟩ : BufTy).Contents (Elt Ideal)) (x6 : (⟨S128, .f32⟩ : BufTy).Contents (Elt Ideal)) (r : Fin 131072) (h : Fin 128) :
    val_main_v14 (F := Ideal) x0 x5 x6 (ix2 r h)
      = layer (fun k => x0 (ix2 r k)) (fun h c => x5 (ix2 h c)) (fun c => x6 (ix1 c)) h := by
  rw [val_main_v14_apply, val_main_v13_apply, val_main_v10_apply, val_main_v12_apply, val_main_v11_apply,
    val_main_call2_v0_apply, val_main_call2_cst_apply]
  simp only [lidx_v10, ridx_v10, bidx_v12]
  rfl

/-- The second branch's result is the two layers applied to every row of the input. -/
theorem second_eq (x0 : (⟨S131072x128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) :
    val_main_v19 (F := Ideal) x0 x5 x6 x7 x8 = mlp (n := 131072) x0 x5 x6 x7 x8 := by
  funext i
  obtain ⟨r, c, rfl⟩ : ∃ (r : Fin 131072) (c : Fin 128), i = ix2 r c := ⟨i 0, i 1, eq_ix2 i⟩
  rw [val_main_v19_apply, val_main_v18_apply, val_main_v15_apply, val_main_v17_apply, val_main_v16_apply,
    val_main_call3_v0_apply, val_main_call3_cst_apply]
  simp only [lidx_v15, ridx_v15, bidx_v17, hidden_v14]
  rfl

end Cert.ReferenceIdeal.Rows

end
-- ==== Proof.Bridge.lean ====
/-
  The reference's result is the same function of the arguments as the kernel program's.

  The reference ends with the lines the kernel program ends with — wrap the negative indices, gather, multiply, scatter-add
  into a zero array — applied to its own two intermediate arrays. Those two arrays are the two layers of each branch applied
  to every row of the input, which is also what the kernel wrote. So the reference's result is `tail` of the same two arrays
  and the same three index vectors.
-/
import proofs.«118211_j33844342293141_1_alg».proof.Proof.RefRows
import proofs.«118211_j33844342293141_1_alg».proof.Proof.Tail

set_option maxRecDepth 16384

noncomputable section

namespace Cert.Bridge

open Idealize.ShloMosaic Idealize.ShloMosaic.TcCoe Idealize.SL.Sem Cert.RowMlp
open Cert.ReferenceIdeal.Read

/-- The reference's last lines are the kernel program's last lines: its result is `tail` of its two branch arrays. -/
theorem ref_tail (x0 : (⟨Cert.ReferenceIdeal.S131072x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 x10 x11 : (⟨Cert.ReferenceIdeal.S1048576, .i32⟩ : BufTy).Contents (Elt Ideal)) :
    val_main_v37 (F := Ideal) x0 x1 x2 x3 x4 x5 x6 x7 x8 x9 x10 x11
      = Cert.KernelIdeal.Tail.tail (val_main_v9 (F := Ideal) x0 x1 x2 x3 x4) (val_main_v19 (F := Ideal) x0 x5 x6 x7 x8) x9 x10 x11 := rfl

/-- The reference's result as `tail` of the two layers of each branch applied to every row of the input. -/
theorem ref_result (x0 : (⟨Cert.ReferenceIdeal.S131072x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 x10 x11 : (⟨Cert.ReferenceIdeal.S1048576, .i32⟩ : BufTy).Contents (Elt Ideal)) :
    val_main_v37 (F := Ideal) x0 x1 x2 x3 x4 x5 x6 x7 x8 x9 x10 x11
      = Cert.KernelIdeal.Tail.tail (mlp (n := 131072) x0 x1 x2 x3 x4) (mlp (n := 131072) x0 x5 x6 x7 x8) x9 x10 x11 := by
  rw [ref_tail, Cert.ReferenceIdeal.Rows.first_eq, Cert.ReferenceIdeal.Rows.second_eq]

end Cert.Bridge

end
-- ==== Proof.lean ====
/-
  The kernel program and its reference compute the same array on the extended reals.

  The kernel program runs one Pallas kernel over a grid of 32 points: at each point a block of 4096 rows of the input
  `Xv` goes through two independent pairs of dense layers, `max(max(x · W0 + b0, 0) · W1 + b1, 0)`, each matrix product
  taken with its operands rounded to a narrower float format first — the identity on the extended reals — and the two
  results are written to blocks of two arrays `X1`, `X2`. The lines after the kernel gather rows of `X1` at `ind_a` and
  of `X2` at `ind_b`, multiply them and add the products into a zero array at the rows `ind_out` names. The reference
  computes the same two pairs of layers on the whole array at once and ends with the same lines.

  An entry of a pair of layers depends on its own row of the input only, so the kernel's 32 blocks of rows are the blocks
  of one whole-array function, `mlp` (Proof/RowMlp.lean), and fill the arrays (Proof/KernelBlock.lean: a stored block at
  an entry; Proof/KernelArrays.lean: from blocks to arrays). The reference's two intermediate arrays are the same
  function of the arguments, read product by product (Proof/RefRows.lean). The last lines of both programs are one
  function of the two arrays and the three index vectors, never opened (Proof/Tail.lean, Proof/Bridge.lean). No sum
  is regrouped and no factor moved, so no entry needs to be finite: the precondition is not used by the value claim.
  The three frames are the generated ones (the reference's is its generated run with the result dropped), and the kernel's
  idealization rewrote nothing, so `preserves` holds trivially.
-/
import proofs.«118211_j33844342293141_1_alg».proof.Defs
import proofs.«118211_j33844342293141_1_alg».proof.Proof.Gen.Kernel
import proofs.«118211_j33844342293141_1_alg».proof.Proof.Gen.Kernel.Skeleton
import proofs.«118211_j33844342293141_1_alg».proof.Proof.Gen.Kernel.Launch
import proofs.«118211_j33844342293141_1_alg».proof.Proof.Gen.Kernel.Points
import proofs.«118211_j33844342293141_1_alg».proof.Proof.Gen.Kernel.Frame
import proofs.«118211_j33844342293141_1_alg».proof.Proof.Gen.KernelIdeal
import proofs.«118211_j33844342293141_1_alg».proof.Proof.Gen.KernelIdeal.Skeleton
import proofs.«118211_j33844342293141_1_alg».proof.Proof.Gen.KernelIdeal.Launch
import proofs.«118211_j33844342293141_1_alg».proof.Proof.Gen.KernelIdeal.Points
import proofs.«118211_j33844342293141_1_alg».proof.Proof.Gen.KernelIdeal.Frame
import proofs.«118211_j33844342293141_1_alg».proof.Proof.Gen.ReferenceIdeal
import proofs.«118211_j33844342293141_1_alg».proof.Proof.Gen.Pre_finite_inputs
import proofs.«118211_j33844342293141_1_alg».proof.Proof.Gen.ReferenceIdeal.Run
import proofs.«118211_j33844342293141_1_alg».proof.Proof.Gen.ReferenceIdeal.Read
import proofs.«118211_j33844342293141_1_alg».proof.Proof.Tail
import proofs.«118211_j33844342293141_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and keeps its arguments: the generated frame. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same array: `tail` of the two layers of each
    branch applied to every row of the input, and of the three index vectors. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Tail.tail (Cert.KernelIdeal.Tail.X1 m c) (Cert.KernelIdeal.Tail.X2 m c)
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v37_eq, Cert.Bridge.ref_result, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
